-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S2x320000 32) (main_arg2 : FVec F S512x512 .f32) (main_arg3 : FVec F S512 .f32) (main_arg4 : FVec F S512x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S10000x256 : Shape := ⟨2, ![10000, 256]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x512 : Shape := ⟨2, ![1, 512]⟩
abbrev S1x256 : Shape := ⟨2, ![1, 256]⟩
abbrev S4000x512 : Shape := ⟨2, ![4000, 512]⟩
abbrev S4000x256 : Shape := ⟨2, ![4000, 256]⟩
abbrev S1x320000x256 : Shape := ⟨3, ![1, 320000, 256]⟩

abbrev nBuf : Space → Nat
  | .hbm => 36
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S10000x256, .bf16⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S320000x256, .bf16⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x256, .bf16⟩
  | .hbm, ⟨29, _⟩ => ⟨S320000x512, .bf16⟩
  | .hbm, ⟨30, _⟩ => ⟨S512x512, .bf16⟩
  | .hbm, ⟨31, _⟩ => ⟨S512x256, .bf16⟩
  | .hbm, ⟨32, _⟩ => ⟨S1x512, .f32⟩
  | .hbm, ⟨33, _⟩ => ⟨S1x256, .f32⟩
  | .hbm, ⟨34, _⟩ => ⟨S320000x256, .f32⟩
  | .hbm, ⟨35, _⟩ => ⟨S1x320000x256, .f32⟩
  | .local _ .vmem, ⟨0, _⟩ => ⟨S4000x512, .bf16⟩
  | .local _ .vmem, ⟨1, _⟩ => ⟨S4000x512, .bf16⟩
  | .local _ .vmem, ⟨2, _⟩ => ⟨S512x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S4000x256, .f32⟩
  | .local _ .vmem, ⟨7, _⟩ => ⟨S4000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  shapeCasts_S512_S1x512 : S512.ShapeCasts S1x512
  shapeCasts_S256_S1x256 : S256.ShapeCasts S1x256
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  shapeCasts_S320000x256_S1x320000x256 : S320000x256.ShapeCasts S1x320000x256
  gather_S10000x256_S320000x1_S320000x256_1_0_n_n_0_1_1256_wf : GatherDims.WF S10000x256 S320000x1 S320000x256 [1] [0] [] [0] [] 1 ![1, 256]
  dot_S4000x512_S512x512_S4000x512_1_0_0_1_n_n_wf : DotDims.WF S4000x512 S512x512 S4000x512 [1] [0] [0] [1] [] []
  dot_S4000x512_S512x256_S4000x256_1_0_0_1_n_n_wf : DotDims.WF S4000x512 S512x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S320000x512.size a
  hwx0_0 : ∀ i : grid0.Coords, EltTy.bits .bf16 = 32 ∨ (Rect.block (s := S320000x512) S4000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S320000x256.size a
  hwx0_5 : ∀ i : grid0.Coords, EltTy.bits .f32 = 32 ∨ (Rect.block (s := S320000x256) S4000x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf

abbrev win0_0 : Pipeline.Window sig grid0 :=
  Pipeline.Window.ofSpec (Memref.whole main_v19) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x512 : Shape := ⟨2, ![1, 512]⟩
abbrev S1x256 : Shape := ⟨2, ![1, 256]⟩
abbrev S1x320000x256 : Shape := ⟨3, ![1, 320000, 256]⟩

abbrev nBuf : Space → Nat
  | .hbm => 41
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x512, .f32⟩
  | .hbm, ⟨29, _⟩ => ⟨S320000x512, .f32⟩
  | .hbm, ⟨30, _⟩ => ⟨S1x512, .f32⟩
  | .hbm, ⟨31, _⟩ => ⟨S320000x512, .f32⟩
  | .hbm, ⟨32, _⟩ => ⟨S320000x512, .f32⟩
  | .hbm, ⟨33, _⟩ => ⟨S_, .f32⟩
  | .hbm, ⟨34, _⟩ => ⟨S320000x512, .f32⟩
  | .hbm, ⟨35, _⟩ => ⟨S320000x512, .f32⟩
  | .hbm, ⟨36, _⟩ => ⟨S320000x256, .f32⟩
  | .hbm, ⟨37, _⟩ => ⟨S1x256, .f32⟩
  | .hbm, ⟨38, _⟩ => ⟨S320000x256, .f32⟩
  | .hbm, ⟨39, _⟩ => ⟨S320000x256, .f32⟩
  | .hbm, ⟨40, _⟩ => ⟨S1x320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  shapeCasts_S320000x256_S1x320000x256 : S320000x256.ShapeCasts S1x320000x256
  gather_S10000x256_S320000x1_S320000x256_1_0_n_n_0_1_1256_wf : GatherDims.WF S10000x256 S320000x1 S320000x256 [1] [0] [] [0] [] 1 ![1, 256]
  dot_S320000x512_S512x512_S320000x512_1_0_0_1_n_n_wf : DotDims.WF S320000x512 S512x512 S320000x512 [1] [0] [0] [1] [] []
  dot_S320000x512_S512x256_S320000x256_1_0_0_1_n_n_wf : DotDims.WF S320000x512 S512x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x512_S320000x512_1_0_0_1_n_n : DotDims S320000x512 S512x512 S320000x512 where
  lhsContracting := [1]
  rhsContracting := [0]
  lhsNonContracting := [0]
  rhsNonContracting := [1]
  lhsBatch := []
  rhsBatch := []
  wf := dot_S320000x512_S512x512_S320000x512_1_0_0_1_n_n_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf

class Facts : Prop extends Facts₀ where

variable [Facts]
-- ==== Proof.KernelInputs.lean ====
/-
  What the region finds in the arrays it stages, and each window's block at a grid point.

  The host lines before the region hand the kernel five arrays: the [320000, 512] feature array (the gathered
  endpoint rows side by side — kept here as the region-entry contents of its buffer, never opened), the two weight
  matrices narrowed (the identity on the extended reals, so they are the arguments themselves), and the two bias
  vectors reshaped to one row each. The grid has 80 points; at point `t` the feature window's block is rows
  `4000 t … 4000 t + 3999`, and the other four windows' blocks are their whole arrays at every point.
-/
import proofs.«178466_j66692252172957_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Inputs

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The index maps over the grid -/

/-- The printed index maps, decided over the 80 points: the feature window and the output window move one block
    of rows per point and stay on the one block of columns; the other windows never move. -/
theorem index_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The arrays at region entry -/

/-- The first weight matrix reaches the region as launched: narrowing a real to another format changes nothing. -/
theorem firstMatrix (c : Dev nD) :
    (V m c main_v20 : S512x512.Idx → EReal) = m ((c : Thread nD τ).loc main_arg2) := by
  show StableHlo.after hostOps0 (fun b => m (c, b)) (Proc.devRef .tc main_v20) = _
  after_results
  rfl

/-- So does the second. -/
theorem secondMatrix (c : Dev nD) :
    (V m c main_v21 : S512x256.Idx → EReal) = m ((c : Thread nD τ).loc main_arg4) := by
  show StableHlo.after hostOps0 (fun b => m (c, b)) (Proc.devRef .tc main_v21) = _
  after_results
  rfl

/-- The first bias vector reaches it as one row. -/
theorem firstBias (c : Dev nD) :
    (V m c main_v22 : S1x512.Idx → EReal) = shapeCast _ (m ((c : Thread nD τ).loc main_arg3)) shapeCasts_S512_S1x512 := by
  show StableHlo.after hostOps0 (fun b => m (c, b)) (Proc.devRef .tc main_v22) = _
  after_results
  rfl

/-- So does the second. -/
theorem secondBias (c : Dev nD) :
    (V m c main_v23 : S1x256.Idx → EReal) = shapeCast _ (m ((c : Thread nD τ).loc main_arg5)) shapeCasts_S256_S1x256 := by
  show StableHlo.after hostOps0 (fun b => m (c, b)) (Proc.devRef .tc main_v23) = _
  after_results
  rfl

/-! ## The blocks at a point -/

/-- Row `p` of the feature window's block at point `t` is row `4000 t + p` of the feature array. -/
theorem rows_read (c : Dev nD) (t : Fin cfg0.N) (p : Fin 4000) (l : Fin 512) (e : Fin 320000)
    (he : e.val = 4000 * t.val + p.val) :
    (iblk m c 0 t : FVec Ideal S4000x512 .bf16) (ix2 p l) = (V m c main_v19 : S320000x512.Idx → EReal) (ix2 e l) := by
  obtain ⟨i0, i1, -⟩ := index_facts t
  show (V m c main_v19 : S320000x512.Idx → EReal) (((cfg0.win 0).blk t).view.emb (ix2 p l)) = _
  refine congrArg (V m c main_v19 : S320000x512.Idx → EReal) (funext fun a => Fin.ext ?_)
  match a with
  | ⟨0, _⟩ => show win0_0.index t (0 : Fin 2) * 4000 + 1 * p.val = e.val; rw [i0, he]; omega
  | ⟨1, _⟩ => show win0_0.index t (1 : Fin 2) * 512 + 1 * l.val = l.val; rw [i1]; omega

/-- The first matrix's block is the first weight argument. -/
theorem firstMatrix_read (c : Dev nD) (t : Fin cfg0.N) (l k : Fin 512) :
    (iblk m c 1 t : FVec Ideal S512x512 .bf16) (ix2 l k) = (m ((c : Thread nD τ).loc main_arg2) : S512x512.Idx → EReal) (ix2 l k) := by
  obtain ⟨-, -, -, -, i0, i1, -⟩ := index_facts t
  show (V m c main_v20 : S512x512.Idx → EReal) (((cfg0.win 1).blk t).view.emb (ix2 l k)) = _
  refine (congrFun (firstMatrix m c) _).trans (congrArg (m ((c : Thread nD τ).loc main_arg2) : S512x512.Idx → EReal) (funext fun a => Fin.ext ?_))
  match a with
  | ⟨0, _⟩ => show win0_1.index t (0 : Fin 2) * 512 + 1 * l.val = l.val; rw [i0]; omega
  | ⟨1, _⟩ => show win0_1.index t (1 : Fin 2) * 512 + 1 * k.val = k.val; rw [i1]; omega

/-- The second matrix's block is the second weight argument. -/
theorem secondMatrix_read (c : Dev nD) (t : Fin cfg0.N) (k : Fin 512) (q : Fin 256) :
    (iblk m c 3 t : FVec Ideal S512x256 .bf16) (ix2 k q) = (m ((c : Thread nD τ).loc main_arg4) : S512x256.Idx → EReal) (ix2 k q) := by
  obtain ⟨-, -, -, -, -, -, -, -, i0, i1, -⟩ := index_facts t
  show (V m c main_v21 : S512x256.Idx → EReal) (((cfg0.win 3).blk t).view.emb (ix2 k q)) = _
  refine (congrFun (secondMatrix m c) _).trans (congrArg (m ((c : Thread nD τ).loc main_arg4) : S512x256.Idx → EReal) (funext fun a => Fin.ext ?_))
  match a with
  | ⟨0, _⟩ => show win0_3.index t (0 : Fin 2) * 512 + 1 * k.val = k.val; rw [i0]; omega
  | ⟨1, _⟩ => show win0_3.index t (1 : Fin 2) * 256 + 1 * q.val = q.val; rw [i1]; omega

/-- The first bias row's entry `k` is the first bias argument's entry `k`. -/
theorem firstBias_read (c : Dev nD) (t : Fin cfg0.N) (k : Fin 512) :
    (iblk m c 2 t : FVec Ideal S1x512 .f32) (ix2 (0 : Fin 1) k) = (m ((c : Thread nD τ).loc main_arg3) : S512.Idx → EReal) (ix1 k) := by
  obtain ⟨-, -, -, -, -, -, i0, i1, -⟩ := index_facts t
  show (V m c main_v22 : S1x512.Idx → EReal) (((cfg0.win 2).blk t).view.emb (ix2 (0 : Fin 1) k)) = _
  refine (congrFun (firstBias m c) _).trans ?_
  refine shapeCast_apply (m ((c : Thread nD τ).loc main_arg3) : S512.Idx → EReal) shapeCasts_S512_S1x512 _ (ix1 k) ?_
  show (S512.rowMajor (ix1 k)).val = (S1x512.rowMajor (((cfg0.win 2).blk t).view.emb (ix2 (0 : Fin 1) k))).val
  rewrite [Shape.rowMajor_val_two, Shape.rowMajor_val_one]
  show k.val = (win0_2.index t (0 : Fin 2) * 1 + 1 * 0) * 512 + (win0_2.index t (1 : Fin 2) * 512 + 1 * k.val)
  rw [i0, i1]; omega

/-- The second bias row's entry `q` is the second bias argument's entry `q`. -/
theorem secondBias_read (c : Dev nD) (t : Fin cfg0.N) (q : Fin 256) :
    (iblk m c 4 t : FVec Ideal S1x256 .f32) (ix2 (0 : Fin 1) q) = (m ((c : Thread nD τ).loc main_arg5) : S256.Idx → EReal) (ix1 q) := by
  obtain ⟨-, -, -, -, -, -, -, -, -, -, i0, i1⟩ := index_facts t
  show (V m c main_v23 : S1x256.Idx → EReal) (((cfg0.win 4).blk t).view.emb (ix2 (0 : Fin 1) q)) = _
  refine (congrFun (secondBias m c) _).trans ?_
  refine shapeCast_apply (m ((c : Thread nD τ).loc main_arg5) : S256.Idx → EReal) shapeCasts_S256_S1x256 _ (ix1 q) ?_
  show (S256.rowMajor (ix1 q)).val = (S1x256.rowMajor (((cfg0.win 4).blk t).view.emb (ix2 (0 : Fin 1) q))).val
  rewrite [Shape.rowMajor_val_two, Shape.rowMajor_val_one]
  show q.val = (win0_4.index t (0 : Fin 2) * 1 + 1 * 0) * 256 + (win0_4.index t (1 : Fin 2) * 256 + 1 * q.val)
  rw [i0, i1]; omega

end Cert.KernelIdeal.Inputs

end
-- ==== Proof.EdgeMlp.lean ====
/-
  The edge network's arithmetic, one edge at a time.

  An edge's feature row `row : Fin 512 → EReal` (the two endpoint rows of the node table side by side) goes through a
  two-layer perceptron: hidden unit `k` is `max (∑ l, row l · w1 l k + c1 k) 0`, and output unit `q` is
  `∑ k, hidden k · w2 k q + c2 q`. Everything is on the extended reals; the sums are finite sums in a commutative
  monoid, so their order never matters, and no law that needs finiteness (distributivity, cancellation) is used.

  `edgeOut` is the whole result: row `e` of the [320000, 256] array is the perceptron's output on row `e` of the
  [320000, 512] feature array.
-/
import Idealize.ShloMosaic.PureOps.Ideal
import Idealize.ShloMosaic.Lib.ValueIdx

noncomputable section

open scoped BigOperators

namespace Cert.EdgeMlp

open Idealize.ShloMosaic Idealize.ShloMosaic.ValueIdx

/-- Hidden unit `k` of one edge: the rectified affine form of the edge's feature row. -/
def hiddenUnit (row : Fin 512 → EReal) (w1 : Fin 512 → Fin 512 → EReal) (c1 : Fin 512 → EReal) (k : Fin 512) : EReal :=
  max ((∑ l : Fin 512, row l * w1 l k) + c1 k) 0

/-- Output unit `q` of one edge: the affine form of the edge's 512 hidden units. -/
def outUnit (row : Fin 512 → EReal) (w1 : Fin 512 → Fin 512 → EReal) (c1 : Fin 512 → EReal)
    (w2 : Fin 512 → Fin 256 → EReal) (c2 : Fin 256 → EReal) (q : Fin 256) : EReal :=
  (∑ k : Fin 512, hiddenUnit row w1 c1 k * w2 k q) + c2 q

/-- The whole result array from the feature array, the two weight matrices and the two bias vectors: entry
    `(e, q)` is output unit `q` of edge `e`'s feature row. -/
def edgeOut (ef : (⟨2, ![320000, 512]⟩ : Shape).Idx → EReal) (W1 : (⟨2, ![512, 512]⟩ : Shape).Idx → EReal)
    (b1 : (⟨1, ![512]⟩ : Shape).Idx → EReal) (W2 : (⟨2, ![512, 256]⟩ : Shape).Idx → EReal)
    (b2 : (⟨1, ![256]⟩ : Shape).Idx → EReal) : (⟨2, ![320000, 256]⟩ : Shape).Idx → EReal := fun i =>
  outUnit (fun l => ef (ix2 (⟨(i 0).val, idx2_lt0 i⟩ : Fin 320000) l)) (fun l k => W1 (ix2 l k)) (fun k => b1 (ix1 k))
    (fun k q => W2 (ix2 k q)) (fun q => b2 (ix1 q)) (⟨(i 1).val, idx2_lt1 i⟩ : Fin 256)

/-- At an index given by its coordinates. -/
theorem edgeOut_ix2 (ef : (⟨2, ![320000, 512]⟩ : Shape).Idx → EReal) (W1 : (⟨2, ![512, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (e : Fin 320000) (q : Fin 256) :
    edgeOut ef W1 b1 W2 b2 (ix2 e q)
      = outUnit (fun l => ef (ix2 e l)) (fun l k => W1 (ix2 l k)) (fun k => b1 (ix1 k))
          (fun k q => W2 (ix2 k q)) (fun q => b2 (ix1 q)) q := rfl

end Cert.EdgeMlp

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.KernelBlock.lean ====
/-
  One block of the kernel, read at an entry.

  At a grid point the body loads a [4000, 512] block of edge feature rows, the two weight matrices and the two bias
  rows ([1, 512] and [1, 256]), and stores ONE value: the product of the block with the first matrix (into a zero
  accumulator), plus the first bias row broadcast down the rows, rectified against zero, narrowed (the identity on
  the extended reals), multiplied by the second matrix (into a zero accumulator), plus the second bias row.
  Entry `(p, q)` of that value is the perceptron's output unit `q` on row `p` of the block.
-/
import proofs.«178466_j66692252172957_2_alg».proof.Proof.Gen.KernelIdeal.Skeleton
import proofs.«178466_j66692252172957_2_alg».proof.Proof.EdgeMlp
import proofs.«178466_j66692252172957_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.EdgeMlp

/-- A bias row [1, n] broadcast down `a` rows reads, at `(p, k)`, the row's entry `k`. -/
theorem biasRow_apply {a n : Nat} (hn : n ≠ 1) (x : FVec Ideal ⟨2, ![1, n]⟩ .f32)
    (h : (⟨2, ![1, n]⟩ : Shape).Broadcasts ⟨2, ![a, n]⟩) (p : Fin a) (k : Fin n) :
    broadcastTo ⟨2, ![a, n]⟩ x h (ix2 p k) = x (ix2 (0 : Fin 1) k) := by
  refine broadcastTo_apply x h (ix2 p k) (ix2 (0 : Fin 1) k) (fun d => ?_)
  match d with
  | ⟨0, _⟩ => show (0 : Nat) = if (1 : Nat) = 1 then 0 else _; rw [if_pos rfl]
  | ⟨1, _⟩ => show k.val = if n = 1 then 0 else k.val; rw [if_neg hn]

/-- The first product's dimension numbers are the plain ones: rows by columns, the block's 512 feature columns
    contracted against the matrix's 512 rows, no batch axis. -/
theorem firstProduct_plain : dot_S4000x512_S512x512_S4000x512_1_0_0_1_n_n = DotDims.plain 4000 512 512 := rfl

/-- So are the second's: the 512 hidden units contracted against the second matrix's 512 rows. -/
theorem secondProduct_plain : dot_S4000x512_S512x256_S4000x256_1_0_0_1_n_n = DotDims.plain 4000 512 256 := rfl

/-- The stored value at entry `(p, q)` of the block. -/
theorem stored_apply (x0 : FVec Ideal S4000x512 .bf16) (x1 : FVec Ideal S512x512 .bf16) (x2 : FVec Ideal S1x512 .f32)
    (x3 : FVec Ideal S512x256 .bf16) (x4 : FVec Ideal S1x256 .f32) (p : Fin 4000) (q : Fin 256) :
    k0_pay1 (F := Ideal) x0 x1 x2 x3 x4 (ix2 p q)
      = outUnit (fun l => x0 (ix2 p l)) (fun l k => x1 (ix2 l k)) (fun k => x2 (ix2 (0 : Fin 1) k))
          (fun k q => x3 (ix2 k q)) (fun q => x4 (ix2 (0 : Fin 1) q)) q := by
  unfold k0_pay1
  simp only [shapeCast_self]
  rw [addf_apply, biasRow_apply (by decide) x4 broadcasts_S1x256_S4000x256 p q, secondProduct_plain,
    Cert.LibPlainMatmul.matmul_plain_zero_apply]
  unfold outUnit hiddenUnit
  refine congrArg (· + x4 (ix2 (0 : Fin 1) q)) (Finset.sum_congr rfl fun k _ => congrArg (· * x3 (ix2 k q)) ?_)
  rw [truncf_apply, maximumf_apply, addf_apply, broadcast_apply,
    biasRow_apply (by decide) x2 broadcasts_S1x512_S4000x512 p k, firstProduct_plain,
    Cert.LibPlainMatmul.matmul_plain_zero_apply]
  exact congrArg (max _) Ideal.ofBits_zero_f32

/-- A block whose row `p` is row `e` of a feature array, beside the two matrices and the two bias rows: its
    stored entry `(p, q)` is entry `(e, q)` of the edge network's result. -/
theorem stored_entry (x0 : FVec Ideal S4000x512 .bf16) (x1 : FVec Ideal S512x512 .bf16) (x2 : FVec Ideal S1x512 .f32)
    (x3 : FVec Ideal S512x256 .bf16) (x4 : FVec Ideal S1x256 .f32)
    (ef : (⟨2, ![320000, 512]⟩ : Shape).Idx → EReal) (W1 : (⟨2, ![512, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (p : Fin 4000) (q : Fin 256) (e : Fin 320000)
    (h0 : ∀ l : Fin 512, x0 (ix2 p l) = ef (ix2 e l))
    (h1 : ∀ l k : Fin 512, x1 (ix2 l k) = W1 (ix2 l k))
    (h2 : ∀ k : Fin 512, x2 (ix2 (0 : Fin 1) k) = b1 (ix1 k))
    (h3 : ∀ (k : Fin 512) (q : Fin 256), x3 (ix2 k q) = W2 (ix2 k q))
    (h4 : ∀ q : Fin 256, x4 (ix2 (0 : Fin 1) q) = b2 (ix1 q)) :
    k0_pay1 (F := Ideal) x0 x1 x2 x3 x4 (ix2 p q) = edgeOut ef W1 b1 W2 b2 (ix2 e q) := by
  rw [stored_apply, edgeOut_ix2]
  simp only [h0, h1, h2, h3, h4]

/-- The whole stored block, when its rows are rows `r0 … r0 + 3999` of the feature array: entry `j` is the edge
    network's result at row `r0 + j₀`, column `j₁`. -/
theorem stored_block (x0 : FVec Ideal S4000x512 .bf16) (x1 : FVec Ideal S512x512 .bf16) (x2 : FVec Ideal S1x512 .f32)
    (x3 : FVec Ideal S512x256 .bf16) (x4 : FVec Ideal S1x256 .f32)
    (ef : (⟨2, ![320000, 512]⟩ : Shape).Idx → EReal) (W1 : (⟨2, ![512, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (r0 : Nat) (hr0 : r0 + 4000 ≤ 320000)
    (h0 : ∀ (p : Fin 4000) (l : Fin 512), x0 (ix2 p l) = ef (ix2 (⟨r0 + p.val, by omega⟩ : Fin 320000) l))
    (h1 : ∀ l k : Fin 512, x1 (ix2 l k) = W1 (ix2 l k))
    (h2 : ∀ k : Fin 512, x2 (ix2 (0 : Fin 1) k) = b1 (ix1 k))
    (h3 : ∀ (k : Fin 512) (q : Fin 256), x3 (ix2 k q) = W2 (ix2 k q))
    (h4 : ∀ q : Fin 256, x4 (ix2 (0 : Fin 1) q) = b2 (ix1 q)) (j : S4000x256.Idx) :
    k0_pay1 (F := Ideal) x0 x1 x2 x3 x4 j
      = edgeOut ef W1 b1 W2 b2 (ix2 (⟨r0 + (j 0).val, by have := idx2_lt0 j; omega⟩ : Fin 320000) (⟨(j 1).val, idx2_lt1 j⟩ : Fin 256)) := by
  obtain ⟨p, q, rfl⟩ : ∃ (p : Fin 4000) (q : Fin 256), j = ix2 p q := ⟨j 0, j 1, eq_ix2 j⟩
  exact stored_entry x0 x1 x2 x3 x4 ef W1 b1 W2 b2 p q ⟨r0 + p.val, by omega⟩ (h0 p) h1 h2 h3 h4

end Cert.KernelIdeal.Block

end
-- ==== Proof.KernelArray.lean ====
/-
  From blocks to the array, and the kernel program's run.

  At grid point `t` the body's one store fills the output window's [4000, 256] block, and the pipeline writes it
  back as rows `4000 t … 4000 t + 3999` of the [320000, 256] result array. That block is the same rows of ONE
  function of the region's inputs — the edge network's result on the feature array —, and the 80 blocks tile the
  array (row `r` lies in block `r / 4000`), so the array ends holding that function. The one host line after the
  region reshapes it to [1, 320000, 256].
-/
import proofs.«178466_j66692252172957_2_alg».proof.Proof.KernelInputs
import proofs.«178466_j66692252172957_2_alg».proof.Proof.KernelBlock

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.StableHlo Cert.EdgeMlp Cert.KernelIdeal.Inputs
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- What the result array ends holding: the edge network's result on the feature array the region was handed,
    with the weight and bias arguments as launched. -/
abbrev result (c : Dev nD) : S320000x256.Idx → EReal :=
  edgeOut (V m c main_v19 : S320000x512.Idx → EReal) (m ((c : Thread nD τ).loc main_arg2))
    (m ((c : Thread nD τ).loc main_arg3)) (m ((c : Thread nD τ).loc main_arg4)) (m ((c : Thread nD τ).loc main_arg5))

/-- What point `t` writes back is block `t` of `result`. -/
theorem flushed_eq (c : Dev nD) (t : Fin cfg0.N) :
    (dats m 0 c).flushed 5 t = ((cfg0.win 5).blk t).view.read (Elt Ideal) (result m c) := by
  have ht : t.val < 80 := lt_of_lt_of_eq t.isLt N_0
  obtain ⟨-, -, o0, o1, -⟩ := index_facts t
  show (cfg0.win 5).cut (grid0.coords t) ((dats m 0 c).after 5 t) = _
  rw [after0_5]
  unfold out0_5
  rw [View.canon_unit_zero zeroOffsets]
  simp only [View.ld_unit_zero (S := S4000x512) zeroOffsets, View.ld_unit_zero (S := S512x512) zeroOffsets,
    View.ld_unit_zero (S := S1x512) zeroOffsets, View.ld_unit_zero (S := S512x256) zeroOffsets,
    View.ld_unit_zero (S := S1x256) zeroOffsets]
  funext j
  refine (Block.stored_block (iblk m c 0 t) (iblk m c 1 t) (iblk m c 2 t) (iblk m c 3 t) (iblk m c 4 t)
    (V m c main_v19 : S320000x512.Idx → EReal) (m ((c : Thread nD τ).loc main_arg2))
    (m ((c : Thread nD τ).loc main_arg3)) (m ((c : Thread nD τ).loc main_arg4)) (m ((c : Thread nD τ).loc main_arg5))
    (4000 * t.val) (by omega)
    (fun p l => rows_read m c t p l ⟨4000 * t.val + p.val, by have := p.isLt; omega⟩ rfl)
    (firstMatrix_read m c t) (firstBias_read m c t) (secondMatrix_read m c t) (secondBias_read m c t) j).trans ?_
  show result m c _ = result m c (((cfg0.win 5).blk t).view.emb j)
  refine congrArg (result m c) (funext fun a => Fin.ext ?_)
  match a with
  | ⟨0, _⟩ => show 4000 * t.val + (j 0).val = win0_5.index t (0 : Fin 2) * 4000 + 1 * (j 0).val; rw [o0]; omega
  | ⟨1, _⟩ => show (j 1).val = win0_5.index t (1 : Fin 2) * 256 + 1 * (j 1).val; rw [o1]; omega

/-- An index of the result array is in point `t`'s block iff each coordinate is in the block's range on its axis. -/
theorem mem_block (t : Fin cfg0.N) (i : S320000x256.Idx) :
    i ∈ ((cfg0.win 5).blk t).view.set ↔ ∀ a : Fin 2, win0_5.index t a * S4000x256.size a ≤ (i a).val
      ∧ (i a).val < win0_5.index t a * S4000x256.size a + S4000x256.size a := by
  show i ∈ ((View.whole main_v24).slice (win0_5.rect t)).set ↔ _
  rw [View.set_slice_whole, Rect.mem_set_unit]
  exact Iff.rfl

/-- The 80 blocks tile the array: row `r` is in the block of point `r / 4000`. So the array ends at `result`. -/
theorem final (c : Dev nD) : (dats m 0 c).arrAt 5 cfg0.N = result m c :=
  (dats m 0 c).arrAt_eq_of_cover 5 (result m c) (fun t _ => flushed_eq m c t) fun i => by
    have hi0 : (i 0).val < 320000 := (i 0).isLt
    have hi1 : (i 1).val < 256 := (i 1).isLt
    have hlt : (i 0).val / 4000 < cfg0.N := lt_of_lt_of_eq (by omega : (i 0).val / 4000 < 80) N_0.symm
    obtain ⟨-, -, o0, o1, -⟩ := index_facts ⟨(i 0).val / 4000, hlt⟩
    refine ⟨⟨(i 0).val / 4000, hlt⟩, flush0_5 _, ?_⟩
    rw [mem_block]
    intro a
    match a with
    | ⟨0, _⟩ =>
      show win0_5.index ⟨(i 0).val / 4000, hlt⟩ (0 : Fin 2) * 4000 ≤ (i 0).val
        ∧ (i 0).val < win0_5.index ⟨(i 0).val / 4000, hlt⟩ (0 : Fin 2) * 4000 + 4000
      rw [o0]; show (i 0).val / 4000 * 4000 ≤ (i 0).val ∧ (i 0).val < (i 0).val / 4000 * 4000 + 4000; omega
    | ⟨1, _⟩ =>
      show win0_5.index ⟨(i 0).val / 4000, hlt⟩ (1 : Fin 2) * 256 ≤ (i 1).val
        ∧ (i 1).val < win0_5.index ⟨(i 0).val / 4000, hlt⟩ (1 : Fin 2) * 256 + 256
      rw [o1]; omega

/-- The host line after the region reshapes the result array to [1, 320000, 256]. -/
theorem tail_eq (c : Dev nD) :
    Pipeline.afterTail₀ cfgs (dats m) 0 (V0 m) [hostOps1] c main_v25
      = shapeCast _ (result m c) shapeCasts_S320000x256_S1x320000x256 := by
  unfold Pipeline.afterTail₀
  show StableHlo.after hostOps1 _ (Proc.devRef .tc main_v25) = _
  after_results
  have e := (Pipeline.withArrays_arr spec0 launch0.win.arr_inj c (V0 m c) (fun w => (dats m 0 c).arrAt w cfg0.N) 5).trans
    (final m c)
  exact congrArg (fun X : S320000x256.Idx → EReal => shapeCast S1x320000x256 X shapeCasts_S320000x256_S1x320000x256) e

/-- The kernel program's run, read: every weakly fair execution terminates with the result at the reshaped
    `result` and the six arguments unchanged. -/
theorem run : θ_run defs (onTc (τ := τ) (main (F := Ideal))) ⟨m, fun _ => 0, ρ⟩ fun r => ∀ c : Dev nD,
      r.2.mem ((c : Thread nD τ).loc main_v25) = shapeCast _ (result m c) shapeCasts_S320000x256_S1x320000x256
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Array

end
-- ==== Proof.ReferenceRows.lean ====
/-
  The reference, read at an entry.

  The reference gathers the two endpoint rows of every edge, joins them side by side into the [320000, 512] feature
  array, and applies the two dense layers with whole-array operations: a matrix product, the bias broadcast down the
  rows, a maximum against zero, a second matrix product, the second bias. Its [320000, 256] value before the final
  reshape is, entry by entry, the perceptron's output on the edge's feature row. The feature array itself is never
  opened here: it stays the reference's own term for the gather and the join.
-/
import proofs.«178466_j66692252172957_2_alg».proof.Proof.Gen.ReferenceIdeal.Read
import proofs.«178466_j66692252172957_2_alg».proof.Proof.EdgeMlp
import Idealize.ShloMosaic.Lib.ValueIdx
import Idealize.ShloMosaic.PureOps.Ideal.Laws

noncomputable section

open scoped BigOperators

namespace Cert.ReferenceIdeal.Rows

open Cert.ReferenceIdeal Cert.ReferenceIdeal.Read Idealize.ShloMosaic Idealize.ShloMosaic.ValueIdx Cert.EdgeMlp

/-! ## Where each whole-array operation reads its operands -/

theorem first_lhs (e : Fin 320000) (k l : Fin 512) : lidx_main_v19 (ix2 e k) l = ix2 e l :=
  funext fun a => Fin.ext (by match a with | ⟨0, _⟩ => rfl | ⟨1, _⟩ => rfl)
theorem first_rhs (e : Fin 320000) (k l : Fin 512) : ridx_main_v19 (ix2 e k) l = ix2 l k :=
  funext fun a => Fin.ext (by match a with | ⟨0, _⟩ => rfl | ⟨1, _⟩ => rfl)
theorem first_bias (e : Fin 320000) (k : Fin 512) : idx_main_v20 (idx_main_v21 (ix2 e k)) = ix1 k :=
  funext fun a => Fin.ext (by match a with | ⟨0, _⟩ => rfl)
theorem second_lhs (e : Fin 320000) (q : Fin 256) (k : Fin 512) : lidx_main_v24 (ix2 e q) k = ix2 e k :=
  funext fun a => Fin.ext (by match a with | ⟨0, _⟩ => rfl | ⟨1, _⟩ => rfl)
theorem second_rhs (e : Fin 320000) (q : Fin 256) (k : Fin 512) : ridx_main_v24 (ix2 e q) k = ix2 k q :=
  funext fun a => Fin.ext (by match a with | ⟨0, _⟩ => rfl | ⟨1, _⟩ => rfl)
theorem second_bias (e : Fin 320000) (q : Fin 256) : idx_main_v25 (idx_main_v26 (ix2 e q)) = ix1 q :=
  funext fun a => Fin.ext (by match a with | ⟨0, _⟩ => rfl)

/-! ## The two layers -/

/-- The rectified first layer at `(e, k)` is hidden unit `k` of edge `e`'s feature row. -/
theorem hidden_apply (x0 : (⟨S10000x256, .f32⟩ : BufTy).Contents (Elt Ideal)) (x1 : (⟨S2x320000, .i32⟩ : BufTy).Contents (Elt Ideal))
    (x2 : (⟨S512x512, .f32⟩ : BufTy).Contents (Elt Ideal)) (x3 : (⟨S512, .f32⟩ : BufTy).Contents (Elt Ideal))
    (e : Fin 320000) (k : Fin 512) :
    val_main_v23 (F := Ideal) x0 x1 x2 x3 (ix2 e k)
      = hiddenUnit (fun l => val_main_v18 (F := Ideal) x0 x1 (ix2 e l)) (fun l k => x2 (ix2 l k)) (fun k => x3 (ix1 k)) k := by
  rw [val_main_v23_apply, val_main_v22_apply, val_main_v19_apply, val_main_v21_apply, val_main_v20_apply,
    val_main_call0_v0_apply, val_main_call0_cst_apply, first_bias]
  simp only [first_lhs, first_rhs]
  unfold hiddenUnit
  exact congrArg (max _) Ideal.ofBits_zero_f32

/-- The second layer at `(e, q)` is output unit `q` of edge `e`'s feature row. -/
theorem out_apply (x0 : (⟨S10000x256, .f32⟩ : BufTy).Contents (Elt Ideal)) (x1 : (⟨S2x320000, .i32⟩ : BufTy).Contents (Elt Ideal))
    (x2 : (⟨S512x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (e : Fin 320000) (q : Fin 256) :
    val_main_v27 (F := Ideal) x0 x1 x2 x3 x4 x5 (ix2 e q)
      = outUnit (fun l => val_main_v18 (F := Ideal) x0 x1 (ix2 e l)) (fun l k => x2 (ix2 l k)) (fun k => x3 (ix1 k))
          (fun k q => x4 (ix2 k q)) (fun q => x5 (ix1 q)) q := by
  rw [val_main_v27_apply, val_main_v24_apply, val_main_v26_apply, val_main_v25_apply, second_bias]
  simp only [second_lhs, second_rhs, hidden_apply]
  rfl

/-- The reference's value before its final reshape is the edge network's result on its own feature array. -/
theorem value_eq (x0 : (⟨S10000x256, .f32⟩ : BufTy).Contents (Elt Ideal)) (x1 : (⟨S2x320000, .i32⟩ : BufTy).Contents (Elt Ideal))
    (x2 : (⟨S512x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal)) :
    val_main_v27 (F := Ideal) x0 x1 x2 x3 x4 x5 = edgeOut (val_main_v18 (F := Ideal) x0 x1) x2 x3 x4 x5 := by
  funext i
  obtain ⟨e, q, rfl⟩ : ∃ (e : Fin 320000) (q : Fin 256), i = ix2 e q := ⟨i 0, i 1, eq_ix2 i⟩
  rw [edgeOut_ix2]
  exact out_apply x0 x1 x2 x3 x4 x5 e q

end Cert.ReferenceIdeal.Rows

end
-- ==== Proof.Features.lean ====
/-
  The two programs build ONE feature array.

  Both programs split the [2, 320000] index array into its two rows, wrap a negative index around by adding the
  node count 10000, gather the indexed rows of the [10000, 256] node table and join the two gathers side by side.
  The kernel's program narrows the node table first; on the extended reals that changes nothing, so the array its
  region is handed is, term for term, the reference's feature array of the same arguments.
-/
import proofs.«178466_j66692252172957_2_alg».proof.Proof.Gen.KernelIdeal.Frame
import proofs.«178466_j66692252172957_2_alg».proof.Proof.Gen.ReferenceIdeal.Read
import Idealize.ShloMosaic.Lib.StableHlo.Run

noncomputable section

namespace Cert.KernelIdeal.Features

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The feature array at region entry is the reference's feature array of the node table and the index array. -/
theorem features_eq (c : Dev nD) : (V m c main_v19 : S320000x512.Idx → EReal)
    = Cert.ReferenceIdeal.Read.val_main_v18 (F := Ideal) (m ((c : Thread nD τ).loc main_arg0))
        (m ((c : Thread nD τ).loc main_arg1)) := by
  show StableHlo.after hostOps0 (fun b => m (c, b)) (Proc.devRef .tc main_v19) = _
  after_results_simp
  rfl

end Cert.KernelIdeal.Features

end
-- ==== Proof.lean ====
/-
  An edge network: for each of 320000 edges, the two endpoint rows of a [10000, 256] node table side by side — a
  512-entry feature row — go through a two-layer perceptron, `relu (row · W1 + b1) · W2 + b2`, giving a
  [1, 320000, 256] result.

  The reference does it with whole-array operations. The kernel's program builds the same feature array on the host
  (from the node table narrowed to a shorter float format, which on the extended reals is the identity), narrows the
  two weight matrices likewise, and runs the perceptron in a pipelined region of 80 grid points, each taking 4000
  feature rows to 4000 result rows through two matrix products into zero accumulators.

  On the extended reals both results are ONE function of the arguments, entry by entry
  (`Cert.EdgeMlp.edgeOut` of the shared feature array): a matrix product is the finite sum of the products of
  entries on either side, the biases are added and the maximum against zero taken entry by entry, and nothing is
  rounded. Only the commutative-monoid structure of the sums is used, so the precondition (finite inputs) is never
  opened. The idealization rewrote nothing, so `preserves` has nothing to state.

  Proof/EdgeMlp.lean is that function; Proof/KernelBlock.lean reads the kernel body's one stored value at an entry;
  Proof/KernelInputs.lean reads the region's input arrays and the windows' blocks; Proof/KernelArray.lean goes from
  the 80 written-back blocks to the array and through the final reshape; Proof/ReferenceRows.lean reads the
  reference's layers at an entry; Proof/Features.lean identifies the two feature arrays.
-/
import proofs.«178466_j66692252172957_2_alg».proof.Defs
import proofs.«178466_j66692252172957_2_alg».proof.Proof.Gen.Kernel
import proofs.«178466_j66692252172957_2_alg».proof.Proof.Gen.Kernel.Skeleton
import proofs.«178466_j66692252172957_2_alg».proof.Proof.Gen.Kernel.Launch
import proofs.«178466_j66692252172957_2_alg».proof.Proof.Gen.Kernel.Points
import proofs.«178466_j66692252172957_2_alg».proof.Proof.Gen.Kernel.Frame
import proofs.«178466_j66692252172957_2_alg».proof.Proof.Gen.KernelIdeal
import proofs.«178466_j66692252172957_2_alg».proof.Proof.Gen.KernelIdeal.Skeleton
import proofs.«178466_j66692252172957_2_alg».proof.Proof.Gen.KernelIdeal.Launch
import proofs.«178466_j66692252172957_2_alg».proof.Proof.Gen.KernelIdeal.Points
import proofs.«178466_j66692252172957_2_alg».proof.Proof.Gen.KernelIdeal.Frame
import proofs.«178466_j66692252172957_2_alg».proof.Proof.Gen.ReferenceIdeal
import proofs.«178466_j66692252172957_2_alg».proof.Proof.Gen.Pre_finite_inputs
import proofs.«178466_j66692252172957_2_alg».proof.Proof.Gen.ReferenceIdeal.Run
import proofs.«178466_j66692252172957_2_alg».proof.Proof.Gen.ReferenceIdeal.Read
import proofs.«178466_j66692252172957_2_alg».proof.Proof.KernelArray
import proofs.«178466_j66692252172957_2_alg».proof.Proof.ReferenceRows
import proofs.«178466_j66692252172957_2_alg».proof.Proof.Features
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does it read on the extended reals. -/
theorem frame_kernelIdeal : Cert.frame_KernelIdeal := fun m ρ _ => Cert.KernelIdeal.Gen.frame m ρ

/-- The reference runs and keeps its arguments: its run with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel's program was idealized. -/
theorem preserves : Cert.preserves_Kernel_KernelIdeal := trivial

/-- From memories agreeing on the six arguments both programs end with the reshaped edge-network result of the one
    feature array: the kernel's by its 80 blocks, the reference's layer by layer. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  unfold Cert.ReferenceIdeal.Read.val_main_v28
  rw [Cert.ReferenceIdeal.Rows.value_eq, (hagree c).1, (hagree c).2.1, (hagree c).2.2.1, (hagree c).2.2.2.1,
    (hagree c).2.2.2.2.1, (hagree c).2.2.2.2.2]
  show _ = shapeCast _ (Cert.EdgeMlp.edgeOut (Cert.KernelIdeal.Gen.V m c Cert.KernelIdeal.main_v19) _ _ _ _) _
  rw [Cert.KernelIdeal.Features.features_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
